-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel

variable [Facts]

def fn {F : FTy → Type} [FloatOps F] (main_arg0 : FVec F S512x64 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  main_v3
-- ==== Kernel.lean ====
abbrev S512x64 : Shape := ⟨2, ![512, 64]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x64 : Shape := ⟨2, ![130816, 64]⟩
abbrev S1x130816 : Shape := ⟨2, ![1, 130816]⟩
abbrev S512x130816 : Shape := ⟨2, ![512, 130816]⟩
abbrev S1x9344 : Shape := ⟨2, ![1, 9344]⟩
abbrev S256x9344 : Shape := ⟨2, ![256, 9344]⟩

abbrev nBuf : Space → Nat
  | .hbm => 143
  | .vmem => 4
  | .smem => 0
  | _ => 0

abbrev hbmTy0_0 (i : Nat) : BufTy := match i % 128 with
  | 0 => ⟨S512x64, .f32⟩
  | 1 => ⟨S_, .f32⟩
  | 2 => ⟨S512x512, .f32⟩
  | 3 => ⟨S512x512, .i32⟩
  | 4 => ⟨S_, .i32⟩
  | 5 => ⟨S512x512, .i32⟩
  | 6 => ⟨S512x512, .i32⟩
  | 7 => ⟨S512x512, .i32⟩
  | 8 => ⟨S512x512, .i1⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .i1⟩
  | 15 => ⟨S262144, .i1⟩
  | 16 => ⟨S262144, .i32⟩
  | 17 => ⟨S_, .i32⟩
  | 18 => ⟨S_, .i32⟩
  | 19 => ⟨S262144, .i32⟩
  | 20 => ⟨S_, .i32⟩
  | 21 => ⟨S130816, .i32⟩
  | 22 => ⟨S_, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S_, .i32⟩
  | 35 => ⟨S262144, .i32⟩
  | 36 => ⟨S130816, .i32⟩
  | 37 => ⟨S_, .i32⟩
  | 38 => ⟨S_, .i32⟩
  | 39 => ⟨S130816, .i32⟩
  | 40 => ⟨S_, .i32⟩
  | 41 => ⟨S130816, .i32⟩
  | 42 => ⟨S130816, .i32⟩
  | 43 => ⟨S130816, .i32⟩
  | 44 => ⟨S_, .i32⟩
  | 45 => ⟨S130816, .i32⟩
  | 46 => ⟨S130816, .i1⟩
  | 47 => ⟨S130816, .i32⟩
  | 48 => ⟨S130816, .i32⟩
  | 49 => ⟨S_, .i32⟩
  | 50 => ⟨S130816, .i32⟩
  | 51 => ⟨S130816, .i1⟩
  | 52 => ⟨S130816, .i1⟩
  | 53 => ⟨S_, .i32⟩
  | 54 => ⟨S130816, .i32⟩
  | 55 => ⟨S130816, .i32⟩
  | 56 => ⟨S130816, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S130816, .i32⟩
  | 64 => ⟨S130816, .i32⟩
  | 65 => ⟨S_, .i32⟩
  | 66 => ⟨S130816, .i32⟩
  | 67 => ⟨S130816, .i1⟩
  | 68 => ⟨S_, .i32⟩
  | 69 => ⟨S130816, .i32⟩
  | 70 => ⟨S130816, .i1⟩
  | 71 => ⟨S_, .i32⟩
  | 72 => ⟨S_, .i1⟩
  | 73 => ⟨S130816, .i1⟩
  | 74 => ⟨S130816, .i1⟩
  | 75 => ⟨S130816, .i1⟩
  | 76 => ⟨S130816, .i32⟩
  | 77 => ⟨S130816, .i32⟩
  | 78 => ⟨S130816, .i32⟩
  | 79 => ⟨S_, .i32⟩
  | 80 => ⟨S130816, .i32⟩
  | 81 => ⟨S130816, .i32⟩
  | 82 => ⟨S130816, .i32⟩
  | 83 => ⟨S_, .i32⟩
  | 84 => ⟨S130816, .i32⟩
  | 85 => ⟨S130816, .i1⟩
  | 86 => ⟨S130816, .i32⟩
  | 87 => ⟨S130816, .i32⟩
  | 88 => ⟨S_, .i32⟩
  | 89 => ⟨S130816, .i32⟩
  | 90 => ⟨S130816, .i1⟩
  | 91 => ⟨S130816, .i1⟩
  | 92 => ⟨S_, .i32⟩
  | 93 => ⟨S130816, .i32⟩
  | 94 => ⟨S130816, .i32⟩
  | 95 => ⟨S130816, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i1⟩
  | 110 => ⟨S_, .i32⟩
  | 111 => ⟨S_, .i1⟩
  | 112 => ⟨S130816, .i1⟩
  | 113 => ⟨S130816, .i1⟩
  | 114 => ⟨S130816, .i1⟩
  | 115 => ⟨S130816, .i32⟩
  | 116 => ⟨S130816, .i32⟩
  | 117 => ⟨S130816, .i32⟩
  | 118 => ⟨S_, .i32⟩
  | 119 => ⟨S130816, .i32⟩
  | 120 => ⟨S130816, .i1⟩
  | 121 => ⟨S_, .i32⟩
  | 122 => ⟨S130816, .i32⟩
  | 123 => ⟨S130816, .i32⟩
  | 124 => ⟨S130816, .i32⟩
  | 125 => ⟨S130816x1, .i32⟩
  | 126 => ⟨S130816x64, .f32⟩
  | 127 => ⟨S_, .i32⟩
  | _ => ⟨S512x64, .f32⟩

abbrev hbmTy0_1 (i : Nat) : BufTy := match i % 128 with
  | 0 => ⟨S130816, .i32⟩
  | 1 => ⟨S130816, .i1⟩
  | 2 => ⟨S_, .i32⟩
  | 3 => ⟨S130816, .i32⟩
  | 4 => ⟨S130816, .i32⟩
  | 5 => ⟨S130816, .i32⟩
  | 6 => ⟨S130816x1, .i32⟩
  | 7 => ⟨S130816x64, .f32⟩
  | 8 => ⟨S130816x64, .f32⟩
  | 9 => ⟨S130816x64, .f32⟩
  | 10 => ⟨S_, .f32⟩
  | 11 => ⟨S130816, .f32⟩
  | 12 => ⟨S130816, .f32⟩
  | 13 => ⟨S1x130816, .f32⟩
  | 14 => ⟨S512x130816, .f32⟩
  | _ => ⟨S512x64, .f32⟩

abbrev hbmTy (i : Nat) : BufTy := match i / 128 with
  | 0 => hbmTy0_0 i
  | 1 => hbmTy0_1 i
  | _ => ⟨S512x64, .f32⟩

abbrev bufTy : (tb : Table) → Fin (tcTables nBuf tb) → BufTy
  | .hbm, ⟨i, _⟩ => hbmTy i
  | .local _ .vmem, ⟨0, _⟩ => ⟨S1x9344, .f32⟩
  | .local _ .vmem, ⟨1, _⟩ => ⟨S1x9344, .f32⟩
  | .local _ .vmem, ⟨2, _⟩ => ⟨S256x9344, .f32⟩
  | .local _ .vmem, ⟨3, _⟩ => ⟨S256x9344, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_c_9 : Ref sig .tc := ⟨.hbm, 118, rfl⟩
abbrev main_v20 : Ref sig .tc := ⟨.hbm, 119, rfl⟩
abbrev main_v21 : Ref sig .tc := ⟨.hbm, 120, rfl⟩
abbrev main_c_10 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_c_11 : Ref sig .tc := ⟨.hbm, 127, rfl⟩
abbrev main_v27 : Ref sig .tc := ⟨.hbm, 128, rfl⟩
abbrev main_v28 : Ref sig .tc := ⟨.hbm, 129, rfl⟩
abbrev main_c_12 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_cst_13 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x9344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x9344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  reducesTo_S130816x64_S130816_d1 : S130816x64.ReducesTo [1] S130816
  shapeCasts_S130816_S1x130816 : S130816.ShapeCasts S1x130816
  inb_S1x9344_S1x9344_0_0 : ∀ a, (![0, 0] : Fin 2 → Nat) a + S1x9344.size a ≤ S1x9344.size a
  h_S1x9344 : 0 < S1x9344.numel
  shapeCasts_S1x9344_S1x9344 : S1x9344.ShapeCasts S1x9344
  broadcasts_S1x9344_S256x9344 : S1x9344.Broadcasts S256x9344
  inb_S256x9344_S256x9344_0_0 : ∀ a, (![0, 0] : Fin 2 → Nat) a + S256x9344.size a ≤ S256x9344.size a
  h_S256x9344 : 0 < S256x9344.numel
  scatter_S130816_S262144x1_S262144_n_0_0_1_wf : ScatterDims.WF S130816 S262144x1 S262144 [] [0] [0] 1
  gather_S512x64_S130816x1_S130816x64_1_0_n_n_0_1_164_wf : GatherDims.WF S512x64 S130816x1 S130816x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9344.size a ≤ S1x130816.size a
  hwx0_0 : ∀ i : grid0.Coords, EltTy.bits .f32 = 32 ∨ (Rect.block (s := S1x130816) S1x9344.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x9344.size a ≤ S512x130816.size a
  hwx0_1 : ∀ i : grid0.Coords, EltTy.bits .f32 = 32 ∨ (Rect.block (s := S512x130816) S256x9344.size (cc0_transform_1 i) (hinb0_1 i)).WholeWords (EltTy.packing .f32)

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x64_S130816x1_S130816x64_1_0_n_n_0_1_164 : GatherDims S512x64 S130816x1 S130816x64 where
  offsetDims := [1]
  collapsedSliceDims := [0]
  operandBatchingDims := []
  startIndicesBatchingDims := []
  startIndexMap := [0]
  indexVectorDim := 1
  sliceSizes := ![1, 64]
  wf := gather_S512x64_S130816x1_S130816x64_1_0_n_n_0_1_164_wf

abbrev win0_0 : Pipeline.Window sig grid0 :=
  Pipeline.Window.ofSpec (Memref.whole main_v38) S1x9344.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S256x9344.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x64 : Shape := ⟨2, ![512, 64]⟩
abbrev S_ : Shape := ⟨0, ![]⟩
abbrev S512x512 : Shape := ⟨2, ![512, 512]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x64 : Shape := ⟨2, ![130816, 64]⟩
abbrev S1x130816 : Shape := ⟨2, ![1, 130816]⟩
abbrev S512x130816 : Shape := ⟨2, ![512, 130816]⟩

abbrev nBuf : Space → Nat
  | .hbm => 143
  | .vmem => 0
  | .smem => 0
  | _ => 0

abbrev hbmTy0_0 (i : Nat) : BufTy := match i % 128 with
  | 0 => ⟨S512x64, .f32⟩
  | 1 => ⟨S_, .f32⟩
  | 2 => ⟨S512x512, .f32⟩
  | 3 => ⟨S512x512, .i32⟩
  | 4 => ⟨S_, .i32⟩
  | 5 => ⟨S512x512, .i32⟩
  | 6 => ⟨S512x512, .i32⟩
  | 7 => ⟨S512x512, .i32⟩
  | 8 => ⟨S512x512, .i1⟩
  | 9 => ⟨S_, .f32⟩
  | 10 => ⟨S512x512, .f32⟩
  | 11 => ⟨S512x512, .f32⟩
  | 12 => ⟨S_, .f32⟩
  | 13 => ⟨S512x512, .f32⟩
  | 14 => ⟨S512x512, .i1⟩
  | 15 => ⟨S262144, .i1⟩
  | 16 => ⟨S262144, .i32⟩
  | 17 => ⟨S_, .i32⟩
  | 18 => ⟨S_, .i32⟩
  | 19 => ⟨S262144, .i32⟩
  | 20 => ⟨S_, .i32⟩
  | 21 => ⟨S130816, .i32⟩
  | 22 => ⟨S_, .i32⟩
  | 23 => ⟨S_, .i32⟩
  | 24 => ⟨S262144, .i32⟩
  | 25 => ⟨S262144, .i32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S_, .i32⟩
  | 35 => ⟨S262144, .i32⟩
  | 36 => ⟨S130816, .i32⟩
  | 37 => ⟨S_, .i32⟩
  | 38 => ⟨S_, .i32⟩
  | 39 => ⟨S130816, .i32⟩
  | 40 => ⟨S_, .i32⟩
  | 41 => ⟨S130816, .i32⟩
  | 42 => ⟨S130816, .i32⟩
  | 43 => ⟨S130816, .i32⟩
  | 44 => ⟨S_, .i32⟩
  | 45 => ⟨S130816, .i32⟩
  | 46 => ⟨S130816, .i1⟩
  | 47 => ⟨S130816, .i32⟩
  | 48 => ⟨S130816, .i32⟩
  | 49 => ⟨S_, .i32⟩
  | 50 => ⟨S130816, .i32⟩
  | 51 => ⟨S130816, .i1⟩
  | 52 => ⟨S130816, .i1⟩
  | 53 => ⟨S_, .i32⟩
  | 54 => ⟨S130816, .i32⟩
  | 55 => ⟨S130816, .i32⟩
  | 56 => ⟨S130816, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S130816, .i32⟩
  | 64 => ⟨S130816, .i32⟩
  | 65 => ⟨S_, .i32⟩
  | 66 => ⟨S130816, .i32⟩
  | 67 => ⟨S130816, .i1⟩
  | 68 => ⟨S_, .i32⟩
  | 69 => ⟨S130816, .i32⟩
  | 70 => ⟨S130816, .i1⟩
  | 71 => ⟨S_, .i32⟩
  | 72 => ⟨S_, .i1⟩
  | 73 => ⟨S130816, .i1⟩
  | 74 => ⟨S130816, .i1⟩
  | 75 => ⟨S130816, .i1⟩
  | 76 => ⟨S130816, .i32⟩
  | 77 => ⟨S130816, .i32⟩
  | 78 => ⟨S130816, .i32⟩
  | 79 => ⟨S_, .i32⟩
  | 80 => ⟨S130816, .i32⟩
  | 81 => ⟨S130816, .i32⟩
  | 82 => ⟨S130816, .i32⟩
  | 83 => ⟨S_, .i32⟩
  | 84 => ⟨S130816, .i32⟩
  | 85 => ⟨S130816, .i1⟩
  | 86 => ⟨S130816, .i32⟩
  | 87 => ⟨S130816, .i32⟩
  | 88 => ⟨S_, .i32⟩
  | 89 => ⟨S130816, .i32⟩
  | 90 => ⟨S130816, .i1⟩
  | 91 => ⟨S130816, .i1⟩
  | 92 => ⟨S_, .i32⟩
  | 93 => ⟨S130816, .i32⟩
  | 94 => ⟨S130816, .i32⟩
  | 95 => ⟨S130816, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i1⟩
  | 110 => ⟨S_, .i32⟩
  | 111 => ⟨S_, .i1⟩
  | 112 => ⟨S130816, .i1⟩
  | 113 => ⟨S130816, .i1⟩
  | 114 => ⟨S130816, .i1⟩
  | 115 => ⟨S130816, .i32⟩
  | 116 => ⟨S130816, .i32⟩
  | 117 => ⟨S130816, .i32⟩
  | 118 => ⟨S_, .i32⟩
  | 119 => ⟨S130816, .i32⟩
  | 120 => ⟨S130816, .i1⟩
  | 121 => ⟨S_, .i32⟩
  | 122 => ⟨S130816, .i32⟩
  | 123 => ⟨S130816, .i32⟩
  | 124 => ⟨S130816, .i32⟩
  | 125 => ⟨S130816x1, .i32⟩
  | 126 => ⟨S130816x64, .f32⟩
  | 127 => ⟨S_, .i32⟩
  | _ => ⟨S512x64, .f32⟩

abbrev hbmTy0_1 (i : Nat) : BufTy := match i % 128 with
  | 0 => ⟨S130816, .i32⟩
  | 1 => ⟨S130816, .i1⟩
  | 2 => ⟨S_, .i32⟩
  | 3 => ⟨S130816, .i32⟩
  | 4 => ⟨S130816, .i32⟩
  | 5 => ⟨S130816, .i32⟩
  | 6 => ⟨S130816x1, .i32⟩
  | 7 => ⟨S130816x64, .f32⟩
  | 8 => ⟨S130816x64, .f32⟩
  | 9 => ⟨S130816x64, .f32⟩
  | 10 => ⟨S_, .f32⟩
  | 11 => ⟨S130816, .f32⟩
  | 12 => ⟨S130816, .f32⟩
  | 13 => ⟨S1x130816, .f32⟩
  | 14 => ⟨S512x130816, .f32⟩
  | _ => ⟨S512x64, .f32⟩

abbrev hbmTy (i : Nat) : BufTy := match i / 128 with
  | 0 => hbmTy0_0 i
  | 1 => hbmTy0_1 i
  | _ => ⟨S512x64, .f32⟩

abbrev bufTy : (tb : Table) → Fin (tcTables nBuf tb) → BufTy
  | .hbm, ⟨i, _⟩ => hbmTy i
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_c_9 : Ref sig .tc := ⟨.hbm, 118, rfl⟩
abbrev main_v20 : Ref sig .tc := ⟨.hbm, 119, rfl⟩
abbrev main_v21 : Ref sig .tc := ⟨.hbm, 120, rfl⟩
abbrev main_c_10 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_c_11 : Ref sig .tc := ⟨.hbm, 127, rfl⟩
abbrev main_v27 : Ref sig .tc := ⟨.hbm, 128, rfl⟩
abbrev main_v28 : Ref sig .tc := ⟨.hbm, 129, rfl⟩
abbrev main_c_12 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_cst_13 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  reducesTo_S130816x64_S130816_d1 : S130816x64.ReducesTo [1] S130816
  bcast_S130816_S1x130816_1 : S130816.BroadcastsInDim S1x130816 (![1] : Fin 1 → Fin S1x130816.rank)
  bcast_S1x130816_S512x130816_0_1 : S1x130816.BroadcastsInDim S512x130816 (![0, 1] : Fin 2 → Fin S512x130816.rank)
  scatter_S130816_S262144x1_S262144_n_0_0_1_wf : ScatterDims.WF S130816 S262144x1 S262144 [] [0] [0] 1
  gather_S512x64_S130816x1_S130816x64_1_0_n_n_0_1_164_wf : GatherDims.WF S512x64 S130816x1 S130816x64 [1] [0] [] [0] [] 1 ![1, 64]

variable [Facts₀]

def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x64_S130816x1_S130816x64_1_0_n_n_0_1_164 : GatherDims S512x64 S130816x1 S130816x64 where
  offsetDims := [1]
  collapsedSliceDims := [0]
  operandBatchingDims := []
  startIndicesBatchingDims := []
  startIndexMap := [0]
  indexVectorDim := 1
  sliceSizes := ![1, 64]
  wf := gather_S512x64_S130816x1_S130816x64_1_0_n_n_0_1_164_wf

class Facts : Prop extends Facts₀ where

variable [Facts]
-- ==== Proof.RowRepeat.lean ====
/-
  One vector repeated as every row of a matrix, and the three ways the two programs spell it.

  Both programs compute a vector d of P = 130816 distances and return the matrix out[r, j] = d[j] with 512 rows.
  The reference lays d out as one row [1, P] and broadcasts that row over 512 rows; the kernel's program reshapes d
  to [1, P] and lets each grid point copy a piece of that row into a block of rows. Read at an index (r, j) each of
  these is d at j: `repeatRows`.
-/
import Idealize.ShloMosaic.Lib.Pipeline.Value
import Idealize.ShloMosaic.Lib.ValueIdx

noncomputable section

namespace Cert.RowRepeat

open Idealize.ShloMosaic Idealize.ShloMosaic.ValueIdx

variable {α : Type}

/-- The vector of P pair distances. -/
abbrev SP : Shape := ⟨1, ![130816]⟩
/-- The same vector as one row. -/
abbrev S1P : Shape := ⟨2, ![1, 130816]⟩
/-- The result: 512 rows of P entries. -/
abbrev SNP : Shape := ⟨2, ![512, 130816]⟩

/-- The matrix whose every row is the vector `d`: entry (r, j) is d[j]. -/
def repeatRows (d : SP.Idx → α) : SNP.Idx → α := fun i => d (ix1 (i 1 : Fin 130816))

/-- The matrix whose every row is the one row of `x`: entry (r, j) is x[0, j]. -/
def repeatRow (x : S1P.Idx → α) : SNP.Idx → α := fun i => x (ix2 (0 : Fin 1) (i 1 : Fin 130816))

/-- A vector reshaped to one row reads, at (0, j), the vector at j. -/
theorem row_of_vector (h : SP.ShapeCasts S1P) (d : SP.Idx → α) (j : S1P.Idx) :
    shapeCast S1P d h j = d (ix1 (j 1 : Fin 130816)) := by
  refine (shapeCast_addUnit_apply ![130816] d h j).trans (congrArg d ?_)
  funext a; match a with | ⟨0, _⟩ => rfl

/-- Repeating the one row of a reshaped vector is repeating the vector. -/
theorem repeatRow_reshape (h : SP.ShapeCasts S1P) (d : SP.Idx → α) :
    repeatRow (shapeCast S1P d h) = repeatRows d := by
  funext i
  show shapeCast S1P d h (ix2 (0 : Fin 1) (i 1 : Fin 130816)) = d (ix1 (i 1 : Fin 130816))
  rw [row_of_vector]

/-- The host's spelling: the vector broadcast to one row along axis 1, then that row broadcast over the 512 rows,
    is the vector repeated. -/
theorem broadcast_twice (h1 : SP.BroadcastsInDim S1P ![1]) (h2 : S1P.BroadcastsInDim SNP ![0, 1]) (d : SP.Idx → α) :
    broadcastInDim SNP ![0, 1] h2 (broadcastInDim S1P ![1] h1 d) = repeatRows d := by
  funext i
  refine (broadcastInDim_apply ![0, 1] h2 _ i (ix2 (0 : Fin 1) (i 1 : Fin 130816)) ?_).trans ?_
  · intro a
    match a with
    | ⟨0, _⟩ => show 0 = if (1 : Nat) = 1 then 0 else (i 0).val; rw [if_pos rfl]
    | ⟨1, _⟩ => show (i 1).val = if (130816 : Nat) = 1 then 0 else (i 1).val; rw [if_neg (by decide)]
  · refine broadcastInDim_apply ![1] h1 d _ (ix1 (i 1 : Fin 130816)) ?_
    intro a
    match a with
    | ⟨0, _⟩ => show (i 1).val = if (130816 : Nat) = 1 then 0 else (i 1).val; rw [if_neg (by decide)]

end Cert.RowRepeat

end
-- ==== Proof.KernelRows.lean ====
/-
  What the kernel's output array holds after its run: every row is the [1, P] row the region was handed.

  The region has a 2 × 14 grid. At point (a, b) it fetches columns 9344·b … 9344·b + 9343 of the one-row array
  `main_v38`, and its body broadcasts that piece over 256 rows and writes it back as block (a, b) of the
  [512, 130816] output. So the entry (r, j) of the block written at a point is main_v38[0, j]
  (`flushed_eq`); the 28 blocks tile the output (`covered`); hence the whole array is that row repeated (`final`).
-/
import proofs.«100412_j70824010711584_1_alg».proof.Proof.Gen.KernelIdeal.Value
import proofs.«100412_j70824010711584_1_alg».proof.Proof.RowRepeat

noncomputable section

namespace Cert.KernelIdeal.Rows

open Cert.KernelIdeal Cert.KernelIdeal.Gen Idealize.ShloMosaic Idealize.ShloMosaic.TcCoe Idealize.SL.Sem
open Idealize.ShloMosaic.Pipeline (Dat)
open Idealize.ShloMosaic.ValueIdx Cert.RowRepeat

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The two index maps over the grid: the input's block row is always 0 and its block column is the output's. -/
theorem idx_facts : ∀ t : Fin cfg0.N, win0_0.index t (0 : Fin 2) = 0
    ∧ win0_0.index t (1 : Fin 2) = win0_1.index t (1 : Fin 2) :=
  (by decide +kernel : ∀ t : Fin grid0.N, _)

/-- Every block position (a, b) with a < 2, b < 14 is some point's. -/
theorem idx_onto : ∀ (q0 : Fin 2) (q1 : Fin 14), ∃ t : Fin cfg0.N, win0_1.index t = ![q0.val, q1.val] :=
  (by decide +kernel : ∀ (q0 : Fin 2) (q1 : Fin 14), ∃ t : Fin grid0.N, win0_1.index t = ![q0.val, q1.val])

/-- What point `t` writes back is block `t` of the row `main_v38` repeated: the body's broadcast reads its input block
    at (0, y₁), which is the array at (0, 9344·b + y₁), and the output block's entry y sits at column 9344·b + y₁. -/
theorem flushed_eq (c : Dev nD) (t : Fin cfg0.N) :
    (dats m 0 c).flushed 1 t = ((cfg0.win 1).blk t).view.read (Elt F) (repeatRow (V m c main_v38)) := by
  rw [Value.flushed1]
  obtain ⟨e0, e1⟩ := idx_facts t
  funext y
  show out0_1 (iblk m c 0 t) y = repeatRow (V m c main_v38) (((cfg0.win 1).blk t).view.emb y)
  unfold out0_1
  refine (Value.canon1_eq _ y).trans ?_
  show (View.ld (iblk m c 0 t) r0_0) (Value.ix1_0 y) = _
  rw [View.ld_unit_zero (S := S1x9344) zero_offsets]
  show V m c main_v38 (((cfg0.win 0).blk t).view.emb (Value.ix1_0 y))
    = V m c main_v38 (ix2 (0 : Fin 1) ((((cfg0.win 1).blk t).view.emb y) 1 : Fin 130816))
  refine congrArg (V m c main_v38) ?_
  funext a; apply Fin.ext
  match a with
  | ⟨0, _⟩ => show win0_0.index t (0 : Fin 2) * 1 + 1 * 0 = 0; omega
  | ⟨1, _⟩ =>
    show win0_0.index t (1 : Fin 2) * 9344 + 1 * (y 1).val = win0_1.index t (1 : Fin 2) * 9344 + 1 * (y 1).val
    omega

/-- An index of the output is in point `t`'s block iff each coordinate is in the block's range on its axis. -/
theorem mem_blk (t : Fin cfg0.N) (i : S512x130816.Idx) :
    i ∈ ((cfg0.win 1).blk t).view.set ↔ ∀ a : Fin 2, win0_1.index t a * S256x9344.size a ≤ (i a).val
      ∧ (i a).val < win0_1.index t a * S256x9344.size a + S256x9344.size a := by
  show i ∈ ((View.whole main_v39).slice (win0_1.rect t)).set ↔ _
  rw [View.set_slice_whole, Rect.mem_set_unit]
  exact Iff.rfl

/-- The blocks tile the output: the entry (r, j) lies in the block at position (r / 256, j / 9344). -/
theorem covered (i : S512x130816.Idx) :
    ∃ t : Fin cfg0.N, (cfg0.win 1).flush t = true ∧ i ∈ ((cfg0.win 1).blk t).view.set := by
  have hi0 : (i 0).val < 512 := (i 0).isLt
  have hi1 : (i 1).val < 130816 := (i 1).isLt
  obtain ⟨t, ht⟩ := idx_onto ⟨(i 0).val / 256, by omega⟩ ⟨(i 1).val / 9344, by omega⟩
  have q0 : win0_1.index t (0 : Fin 2) = (i 0).val / 256 := congrFun ht 0
  have q1 : win0_1.index t (1 : Fin 2) = (i 1).val / 9344 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 9344 ≤ (i 1).val ∧ (i 1).val < win0_1.index t (1 : Fin 2) * 9344 + 9344
    omega

/-- The output array after the run: the row the region was handed, repeated in all 512 rows. -/
theorem final (c : Dev nD) : (dats m 0 c).arrAt 1 cfg0.N = repeatRow (V m c main_v38) :=
  (dats m 0 c).arrAt_eq_of_cover 1 _ (fun t _ => flushed_eq m c t) covered

/-- The run, with the output array named. -/
theorem run : θ_run defs (onTc (τ := τ) (main (F := F))) ⟨m, fun _ => 0, ρ⟩ fun r => ∀ c : Dev nD,
      r.2.mem ((c : Thread nD τ).loc main_v39) = repeatRow (V m c main_v38)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Rows

end
-- ==== Proof.LibStraightLine.lean ====
/-
  A straight-line host program cut into lines: three general facts, for writing by hand the run of a program whose
  operations come as a list of lists (one list per stretch of @main or per function written out at its call).

  * `after_append` — the contents after two lists of operations run one after the other is the fold over the second
    from the fold over the first;
  * `chain_seq` — lines run one after another are their concatenation run as one line, so an @main proved equal to
    the chain of its lines is `seq` of the flattened list, the form `StableHlo.run_seq` takes;
  * `forall_flatten` — a property of every operation of every line holds of every operation of the flattened list
    (the side conditions `run_seq` asks: each operation touches TensorCore references only, and fixes its results).
-/
import Idealize.ShloMosaic.Lib.StableHlo.Run
import Idealize.ShloMosaic.Lib.Pipeline.Regions

noncomputable section

namespace Cert.StraightLine

open Idealize.ShloMosaic Idealize.SL.Sem Idealize.ShloMosaic.StableHlo

variable {nD : Nat} {τ : Topo} {sig : RefSig} {Val : EltTy → Type} {Λ : Labels}

/-- Operations run one list after another: the fold over a concatenation is the fold over the second list from the
    fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Lines run one after another are their concatenation run as one line. -/
theorem chain_seq (L : List (List (HloOp τ sig Val))) :
    Pipeline.chain (L.map fun l => (seq l : Prog (TpuEff nD τ sig Val Λ .tc) PUnit)) = seq L.flatten := by
  induction L with
  | nil => rfl
  | cons l L ih =>
    rw [List.map_cons, Pipeline.chain_cons, ih, List.flatten_cons, StableHlo.seq_append]

/-- A property of every element of every list holds of every element of their concatenation. -/
theorem forall_flatten {α : Type} {p : α → Prop} (L : List (List α)) (h : L.Forall fun l => l.Forall p) : L.flatten.Forall p :=
  List.forall_iff_forall_mem.mpr fun x hx => by
    obtain ⟨l, hl, hxl⟩ := List.mem_flatten.mp hx
    exact List.forall_iff_forall_mem.mp (List.forall_iff_forall_mem.mp h l hl) x hxl

end Cert.StraightLine

end
-- ==== Proof.RefRun.lean ====
/-
  The reference's @main as a straight line of host operations, and its run.

  The program computes, from the node table z : [512, 64], the Euclidean distance of every pair of rows i < j
  (P = 512·511/2 = 130816 pairs, in row-major order of (i, j)), and repeats that vector in each of 512 rows.
  The operations up to the square root (`line0` … `line16`; the functions @main calls — triu, cumsum, clip,
  floor_divide, remainder — are written out at their calls) end with the distance vector in `main_v37`; the two `closing` operations lay it out as [1, P] and then as [512, P].
  `run_all` : every weakly fair execution of @main terminates, and each buffer ends at the fold of these operations
  over the launch contents.
-/
import proofs.«100412_j70824010711584_1_alg».proof.Proof.Gen.ReferenceIdeal
import proofs.«100412_j70824010711584_1_alg».proof.Proof.LibStraightLine
import Idealize.ShloMosaic.Lib.StableHlo.Run
import Idealize.ShloMosaic.Lib.Pipeline.Regions

set_option maxRecDepth 4096

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The constant one and its [512,512] broadcast. -/
abbrev line0 : List (HloOp τ sig (Elt F)) :=
  [ StableHlo.nullary main_cst (constant S_ .f32 0x3F800000#32),
    StableHlo.unary main_cst main_v0 (broadcastInDim S512x512 ![] bcast_S_S512x512 : (⟨S_, .f32⟩ : BufTy).Contents (Elt F) → (⟨S512x512, .f32⟩ : BufTy).Contents (Elt F)) ]

/-- The call of triu, written out: the all-ones matrix kept strictly above the diagonal. -/
abbrev line1 : List (HloOp τ sig (Elt F)) :=
  [ StableHlo.TRef.nullary (.of main_call0_v0 : StableHlo.TRef sig ⟨S512x512, .i32⟩) (iotaInDim S512x512 32 0),
    StableHlo.TRef.nullary (.of main_call0_c : StableHlo.TRef sig ⟨S_, .i32⟩) (constantI S_ 32 0#32),
    StableHlo.TRef.unary (.of main_call0_c : StableHlo.TRef sig ⟨S_, .i32⟩) (.of main_call0_v1 : StableHlo.TRef sig ⟨S512x512, .i32⟩) (broadcastInDim S512x512 ![] bcast_S_S512x512),
    StableHlo.TRef.binary (.of main_call0_v0 : StableHlo.TRef sig ⟨S512x512, .i32⟩) (.of main_call0_v1 : StableHlo.TRef sig ⟨S512x512, .i32⟩) (.of main_call0_v2 : StableHlo.TRef sig ⟨S512x512, .i32⟩) addi,
    StableHlo.TRef.nullary (.of main_call0_v3 : StableHlo.TRef sig ⟨S512x512, .i32⟩) (iotaInDim S512x512 32 1),
    StableHlo.TRef.binary (.of main_call0_v2 : StableHlo.TRef sig ⟨S512x512, .i32⟩) (.of main_call0_v3 : StableHlo.TRef sig ⟨S512x512, .i32⟩) (.of main_call0_v4 : StableHlo.TRef sig ⟨S512x512, .i1⟩) (cmpi .sge),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S512x512, .f32⟩) (broadcastInDim S512x512 ![] bcast_S_S512x512),
    StableHlo.TRef.ternary (.of main_call0_v4 : StableHlo.TRef sig ⟨S512x512, .i1⟩) (.of main_call0_v5 : StableHlo.TRef sig ⟨S512x512, .f32⟩) (.of main_v0 : StableHlo.TRef sig ⟨S512x512, .f32⟩) (.of main_v1 : StableHlo.TRef sig ⟨S512x512, .f32⟩) select ]

/-- Its comparison with zero: the mask of the pairs i < j. -/
abbrev line2 : List (HloOp τ sig (Elt F)) :=
  [ StableHlo.nullary main_cst_0 (constant S_ .f32 0x00000000#32),
    StableHlo.unary main_cst_0 main_v2 (broadcastInDim S512x512 ![] bcast_S_S512x512 : (⟨S_, .f32⟩ : BufTy).Contents (Elt F) → (⟨S512x512, .f32⟩ : BufTy).Contents (Elt F)),
    StableHlo.binary main_v1 main_v2 main_v3 (cmpf .une : (⟨S512x512, .f32⟩ : BufTy).Contents (Elt F) → (⟨S512x512, .f32⟩ : BufTy).Contents (Elt F) → (⟨S512x512, .i1⟩ : BufTy).Contents (Elt F)) ]

/-- The call of cumsum, written out: the mask flattened, widened to integers, and its running count. -/
abbrev line3 : List (HloOp τ sig (Elt F)) :=
  [ StableHlo.TRef.reshape (.of main_v3 : StableHlo.TRef sig ⟨S512x512, .i1⟩) (.of main_call1_v0 : StableHlo.TRef sig ⟨S262144, .i1⟩) rfl shapeCasts_S512x512_S262144,
    StableHlo.TRef.unary (.of main_call1_v0 : StableHlo.TRef sig ⟨S262144, .i1⟩) (.of main_call1_v1 : StableHlo.TRef sig ⟨S262144, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v1 : StableHlo.TRef sig ⟨S262144, .i32⟩) (.of main_call1_call0_v0 : StableHlo.TRef sig ⟨S_, .i32⟩) (.of main_v4 : StableHlo.TRef sig ⟨S262144, .i32⟩) (fun x v => Host.reduceWindow IntOp.addi ![262144] ![1] ![262143] ![0] x v reduceWindows_S262144_S262144_w262144s1p262143_0 h_S_) ]

/-- The zero table of P entries and the lower bound of the clamp. -/
abbrev line4 : List (HloOp τ sig (Elt F)) :=
  [ StableHlo.nullary main_c (constantI S_ 32 0#32),
    StableHlo.unary main_c main_v5 (broadcastInDim S130816 ![] bcast_S_S130816 : (⟨S_, .i32⟩ : BufTy).Contents (Elt F) → (⟨S130816, .i32⟩ : BufTy).Contents (Elt F)),
    StableHlo.nullary main_c_1 (constantI S_ 32 0#32) ]

/-- The call of clip, written out: the running count clamped below at zero. -/
abbrev line5 : List (HloOp τ sig (Elt F)) :=
  [ StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S262144, .i32⟩) (broadcastInDim S262144 ![] bcast_S_S262144),
    StableHlo.TRef.binary (.of main_call2_v1 : StableHlo.TRef sig ⟨S262144, .i32⟩) (.of main_v4 : StableHlo.TRef sig ⟨S262144, .i32⟩) (.of main_v6 : StableHlo.TRef sig ⟨S262144, .i32⟩) maxsi ]

/-- Negative positions wrapped by P, then a one added into the zero table at each cell's running count. -/
abbrev line6 : List (HloOp τ sig (Elt F)) :=
  [ StableHlo.nullary main_c_2 (constantI S_ 32 0#32),
    StableHlo.unary main_c_2 main_v7 (broadcastInDim S262144 ![] bcast_S_S262144 : (⟨S_, .i32⟩ : BufTy).Contents (Elt F) → (⟨S262144, .i32⟩ : BufTy).Contents (Elt F)),
    StableHlo.binary main_v6 main_v7 main_v8 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 130816#32),
    StableHlo.unary main_c_3 main_v9 (broadcastInDim S262144 ![] bcast_S_S262144 : (⟨S_, .i32⟩ : BufTy).Contents (Elt F) → (⟨S262144, .i32⟩ : BufTy).Contents (Elt F)),
    StableHlo.binary main_v6 main_v9 main_v10 (addi : (⟨S262144, .i32⟩ : BufTy).Contents (Elt F) → (⟨S262144, .i32⟩ : BufTy).Contents (Elt F) → (⟨S262144, .i32⟩ : BufTy).Contents (Elt F)),
    StableHlo.ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v11 main_v12 (broadcastInDim S262144x1 ![0] bcast_S262144_S262144x1_0 : (⟨S262144, .i32⟩ : BufTy).Contents (Elt F) → (⟨S262144x1, .i32⟩ : BufTy).Contents (Elt F)),
    StableHlo.nullary main_c_4 (constantI S_ 32 1#32),
    StableHlo.unary main_c_4 main_v13 (broadcastInDim S262144 ![] bcast_S_S262144 : (⟨S_, .i32⟩ : BufTy).Contents (Elt F) → (⟨S262144, .i32⟩ : BufTy).Contents (Elt F)),
    StableHlo.ternary main_v5 main_v12 main_v13 main_v14 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ]

/-- The call of cumsum_1, written out: the running sum of that table, the flattened position of each pair. -/
abbrev line7 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v14 : StableHlo.TRef sig ⟨S130816, .i32⟩) (.of main_call3_call0_v0 : StableHlo.TRef sig ⟨S_, .i32⟩) (.of main_v15 : StableHlo.TRef sig ⟨S130816, .i32⟩) (fun x v => Host.reduceWindow IntOp.addi ![130816] ![1] ![130815] ![0] x v reduceWindows_S130816_S130816_w130816s1p130815_0 h_S_) ]

/-- The divisor 512. -/
abbrev line8 : List (HloOp τ sig (Elt F)) :=
  [ StableHlo.nullary main_c_5 (constantI S_ 32 512#32) ]

/-- The call of floor_divide by 512, written out. -/
abbrev line9 : List (HloOp τ sig (Elt F)) :=
  [ StableHlo.TRef.unary (.of main_c_5 : StableHlo.TRef sig ⟨S_, .i32⟩) (.of main_call4_v0 : StableHlo.TRef sig ⟨S130816, .i32⟩) (broadcastInDim S130816 ![] bcast_S_S130816),
    StableHlo.TRef.binary (.of main_v15 : StableHlo.TRef sig ⟨S130816, .i32⟩) (.of main_call4_v0 : StableHlo.TRef sig ⟨S130816, .i32⟩) (.of main_call4_v1 : StableHlo.TRef sig ⟨S130816, .i32⟩) Host.divsi,
    StableHlo.TRef.unary (.of main_v15 : StableHlo.TRef sig ⟨S130816, .i32⟩) (.of main_call4_v2 : StableHlo.TRef sig ⟨S130816, .i32⟩) signi,
    StableHlo.TRef.unary (.of main_c_5 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S130816, .i32⟩) (broadcastInDim S130816 ![] bcast_S_S130816),
    StableHlo.TRef.binary (.of main_call4_v2 : StableHlo.TRef sig ⟨S130816, .i32⟩) (.of main_call4_v4 : StableHlo.TRef sig ⟨S130816, .i32⟩) (.of main_call4_v5 : StableHlo.TRef sig ⟨S130816, .i1⟩) (cmpi .ne),
    StableHlo.TRef.unary (.of main_c_5 : StableHlo.TRef sig ⟨S_, .i32⟩) (.of main_call4_v6 : StableHlo.TRef sig ⟨S130816, .i32⟩) (broadcastInDim S130816 ![] bcast_S_S130816),
    StableHlo.TRef.binary (.of main_v15 : StableHlo.TRef sig ⟨S130816, .i32⟩) (.of main_call4_v6 : StableHlo.TRef sig ⟨S130816, .i32⟩) (.of main_call4_v7 : StableHlo.TRef sig ⟨S130816, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S130816, .i32⟩) (broadcastInDim S130816 ![] bcast_S_S130816),
    StableHlo.TRef.binary (.of main_call4_v7 : StableHlo.TRef sig ⟨S130816, .i32⟩) (.of main_call4_v8 : StableHlo.TRef sig ⟨S130816, .i32⟩) (.of main_call4_v9 : StableHlo.TRef sig ⟨S130816, .i1⟩) (cmpi .ne),
    StableHlo.TRef.binary (.of main_call4_v5 : StableHlo.TRef sig ⟨S130816, .i1⟩) (.of main_call4_v9 : StableHlo.TRef sig ⟨S130816, .i1⟩) (.of main_call4_v10 : StableHlo.TRef sig ⟨S130816, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S130816, .i32⟩) (broadcastInDim S130816 ![] bcast_S_S130816),
    StableHlo.TRef.binary (.of main_call4_v1 : StableHlo.TRef sig ⟨S130816, .i32⟩) (.of main_call4_v11 : StableHlo.TRef sig ⟨S130816, .i32⟩) (.of main_call4_v12 : StableHlo.TRef sig ⟨S130816, .i32⟩) subi,
    StableHlo.TRef.ternary (.of main_call4_v10 : StableHlo.TRef sig ⟨S130816, .i1⟩) (.of main_call4_v12 : StableHlo.TRef sig ⟨S130816, .i32⟩) (.of main_call4_v1 : StableHlo.TRef sig ⟨S130816, .i32⟩) (.of main_v16 : StableHlo.TRef sig ⟨S130816, .i32⟩) select ]

/-- The modulus 512. -/
abbrev line10 : List (HloOp τ sig (Elt F)) :=
  [ StableHlo.nullary main_c_6 (constantI S_ 32 512#32) ]

/-- The call of remainder by 512, written out: the row i of each pair. -/
abbrev line11 : List (HloOp τ sig (Elt F)) :=
  [ StableHlo.TRef.unary (.of main_c_6 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S130816, .i32⟩) (broadcastInDim S130816 ![] bcast_S_S130816),
    StableHlo.TRef.binary (.of main_v16 : StableHlo.TRef sig ⟨S130816, .i32⟩) (.of main_call5_v3 : StableHlo.TRef sig ⟨S130816, .i32⟩) (.of main_call5_v4 : StableHlo.TRef sig ⟨S130816, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S130816, .i32⟩) (broadcastInDim S130816 ![] bcast_S_S130816),
    StableHlo.TRef.binary (.of main_call5_v4 : StableHlo.TRef sig ⟨S130816, .i32⟩) (.of main_call5_v5 : StableHlo.TRef sig ⟨S130816, .i32⟩) (.of main_call5_v6 : StableHlo.TRef sig ⟨S130816, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S130816, .i32⟩) (broadcastInDim S130816 ![] bcast_S_S130816),
    StableHlo.TRef.binary (.of main_call5_v4 : StableHlo.TRef sig ⟨S130816, .i32⟩) (.of main_call5_v7 : StableHlo.TRef sig ⟨S130816, .i32⟩) (.of main_call5_v8 : StableHlo.TRef sig ⟨S130816, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S130816, .i1⟩) (broadcastInDim S130816 ![] bcast_S_S130816),
    StableHlo.TRef.binary (.of main_call5_v8 : StableHlo.TRef sig ⟨S130816, .i1⟩) (.of main_call5_v10 : StableHlo.TRef sig ⟨S130816, .i1⟩) (.of main_call5_v11 : StableHlo.TRef sig ⟨S130816, .i1⟩) (cmpi .ne),
    StableHlo.TRef.binary (.of main_call5_v11 : StableHlo.TRef sig ⟨S130816, .i1⟩) (.of main_call5_v6 : StableHlo.TRef sig ⟨S130816, .i1⟩) (.of main_call5_v12 : StableHlo.TRef sig ⟨S130816, .i1⟩) andi,
    StableHlo.TRef.unary main_call5_call0.v0 (.of main_call5_v13 : StableHlo.TRef sig ⟨S130816, .i32⟩) (broadcastInDim S130816 ![] bcast_S_S130816),
    StableHlo.TRef.binary (.of main_call5_v4 : StableHlo.TRef sig ⟨S130816, .i32⟩) (.of main_call5_v13 : StableHlo.TRef sig ⟨S130816, .i32⟩) (.of main_call5_v14 : StableHlo.TRef sig ⟨S130816, .i32⟩) addi,
    StableHlo.TRef.ternary (.of main_call5_v12 : StableHlo.TRef sig ⟨S130816, .i1⟩) (.of main_call5_v14 : StableHlo.TRef sig ⟨S130816, .i32⟩) (.of main_call5_v4 : StableHlo.TRef sig ⟨S130816, .i32⟩) (.of main_v17 : StableHlo.TRef sig ⟨S130816, .i32⟩) select ]

/-- The divisor 1. -/
abbrev line12 : List (HloOp τ sig (Elt F)) :=
  [ StableHlo.nullary main_c_7 (constantI S_ 32 1#32) ]

/-- The call of floor_divide by 1, written out. -/
abbrev line13 : List (HloOp τ sig (Elt F)) :=
  [ StableHlo.TRef.unary (.of main_c_7 : StableHlo.TRef sig ⟨S_, .i32⟩) (.of main_call6_v0 : StableHlo.TRef sig ⟨S130816, .i32⟩) (broadcastInDim S130816 ![] bcast_S_S130816),
    StableHlo.TRef.binary (.of main_v15 : StableHlo.TRef sig ⟨S130816, .i32⟩) (.of main_call6_v0 : StableHlo.TRef sig ⟨S130816, .i32⟩) (.of main_call6_v1 : StableHlo.TRef sig ⟨S130816, .i32⟩) Host.divsi,
    StableHlo.TRef.unary (.of main_v15 : StableHlo.TRef sig ⟨S130816, .i32⟩) (.of main_call6_v2 : StableHlo.TRef sig ⟨S130816, .i32⟩) signi,
    StableHlo.TRef.unary (.of main_c_7 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S130816, .i32⟩) (broadcastInDim S130816 ![] bcast_S_S130816),
    StableHlo.TRef.binary (.of main_call6_v2 : StableHlo.TRef sig ⟨S130816, .i32⟩) (.of main_call6_v4 : StableHlo.TRef sig ⟨S130816, .i32⟩) (.of main_call6_v5 : StableHlo.TRef sig ⟨S130816, .i1⟩) (cmpi .ne),
    StableHlo.TRef.unary (.of main_c_7 : StableHlo.TRef sig ⟨S_, .i32⟩) (.of main_call6_v6 : StableHlo.TRef sig ⟨S130816, .i32⟩) (broadcastInDim S130816 ![] bcast_S_S130816),
    StableHlo.TRef.binary (.of main_v15 : StableHlo.TRef sig ⟨S130816, .i32⟩) (.of main_call6_v6 : StableHlo.TRef sig ⟨S130816, .i32⟩) (.of main_call6_v7 : StableHlo.TRef sig ⟨S130816, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S130816, .i32⟩) (broadcastInDim S130816 ![] bcast_S_S130816),
    StableHlo.TRef.binary (.of main_call6_v7 : StableHlo.TRef sig ⟨S130816, .i32⟩) (.of main_call6_v8 : StableHlo.TRef sig ⟨S130816, .i32⟩) (.of main_call6_v9 : StableHlo.TRef sig ⟨S130816, .i1⟩) (cmpi .ne),
    StableHlo.TRef.binary (.of main_call6_v5 : StableHlo.TRef sig ⟨S130816, .i1⟩) (.of main_call6_v9 : StableHlo.TRef sig ⟨S130816, .i1⟩) (.of main_call6_v10 : StableHlo.TRef sig ⟨S130816, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S130816, .i32⟩) (broadcastInDim S130816 ![] bcast_S_S130816),
    StableHlo.TRef.binary (.of main_call6_v1 : StableHlo.TRef sig ⟨S130816, .i32⟩) (.of main_call6_v11 : StableHlo.TRef sig ⟨S130816, .i32⟩) (.of main_call6_v12 : StableHlo.TRef sig ⟨S130816, .i32⟩) subi,
    StableHlo.TRef.ternary (.of main_call6_v10 : StableHlo.TRef sig ⟨S130816, .i1⟩) (.of main_call6_v12 : StableHlo.TRef sig ⟨S130816, .i32⟩) (.of main_call6_v1 : StableHlo.TRef sig ⟨S130816, .i32⟩) (.of main_v18 : StableHlo.TRef sig ⟨S130816, .i32⟩) select ]

/-- The modulus 512. -/
abbrev line14 : List (HloOp τ sig (Elt F)) :=
  [ StableHlo.nullary main_c_8 (constantI S_ 32 512#32) ]

/-- The call of remainder by 512, written out: the column j of each pair. -/
abbrev line15 : List (HloOp τ sig (Elt F)) :=
  [ StableHlo.TRef.unary (.of main_c_8 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S130816, .i32⟩) (broadcastInDim S130816 ![] bcast_S_S130816),
    StableHlo.TRef.binary (.of main_v18 : StableHlo.TRef sig ⟨S130816, .i32⟩) (.of main_call7_v3 : StableHlo.TRef sig ⟨S130816, .i32⟩) (.of main_call7_v4 : StableHlo.TRef sig ⟨S130816, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S130816, .i32⟩) (broadcastInDim S130816 ![] bcast_S_S130816),
    StableHlo.TRef.binary (.of main_call7_v4 : StableHlo.TRef sig ⟨S130816, .i32⟩) (.of main_call7_v5 : StableHlo.TRef sig ⟨S130816, .i32⟩) (.of main_call7_v6 : StableHlo.TRef sig ⟨S130816, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S130816, .i32⟩) (broadcastInDim S130816 ![] bcast_S_S130816),
    StableHlo.TRef.binary (.of main_call7_v4 : StableHlo.TRef sig ⟨S130816, .i32⟩) (.of main_call7_v7 : StableHlo.TRef sig ⟨S130816, .i32⟩) (.of main_call7_v8 : StableHlo.TRef sig ⟨S130816, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S130816, .i1⟩) (broadcastInDim S130816 ![] bcast_S_S130816),
    StableHlo.TRef.binary (.of main_call7_v8 : StableHlo.TRef sig ⟨S130816, .i1⟩) (.of main_call7_v10 : StableHlo.TRef sig ⟨S130816, .i1⟩) (.of main_call7_v11 : StableHlo.TRef sig ⟨S130816, .i1⟩) (cmpi .ne),
    StableHlo.TRef.binary (.of main_call7_v11 : StableHlo.TRef sig ⟨S130816, .i1⟩) (.of main_call7_v6 : StableHlo.TRef sig ⟨S130816, .i1⟩) (.of main_call7_v12 : StableHlo.TRef sig ⟨S130816, .i1⟩) andi,
    StableHlo.TRef.unary main_call7_call0.v0 (.of main_call7_v13 : StableHlo.TRef sig ⟨S130816, .i32⟩) (broadcastInDim S130816 ![] bcast_S_S130816),
    StableHlo.TRef.binary (.of main_call7_v4 : StableHlo.TRef sig ⟨S130816, .i32⟩) (.of main_call7_v13 : StableHlo.TRef sig ⟨S130816, .i32⟩) (.of main_call7_v14 : StableHlo.TRef sig ⟨S130816, .i32⟩) addi,
    StableHlo.TRef.ternary (.of main_call7_v12 : StableHlo.TRef sig ⟨S130816, .i1⟩) (.of main_call7_v14 : StableHlo.TRef sig ⟨S130816, .i32⟩) (.of main_call7_v4 : StableHlo.TRef sig ⟨S130816, .i32⟩) (.of main_v19 : StableHlo.TRef sig ⟨S130816, .i32⟩) select ]

/-- Both index vectors wrapped into range, the two row gathers z[i] and z[j], their difference squared, summed along the 64 coordinates, and the square root: the distance of every pair. -/
abbrev line16 : List (HloOp τ sig (Elt F)) :=
  [ StableHlo.nullary main_c_9 (constantI S_ 32 0#32),
    StableHlo.unary main_c_9 main_v20 (broadcastInDim S130816 ![] bcast_S_S130816 : (⟨S_, .i32⟩ : BufTy).Contents (Elt F) → (⟨S130816, .i32⟩ : BufTy).Contents (Elt F)),
    StableHlo.binary main_v17 main_v20 main_v21 (cmpi .slt : (⟨S130816, .i32⟩ : BufTy).Contents (Elt F) → (⟨S130816, .i32⟩ : BufTy).Contents (Elt F) → (⟨S130816, .i1⟩ : BufTy).Contents (Elt F)),
    StableHlo.nullary main_c_10 (constantI S_ 32 512#32),
    StableHlo.unary main_c_10 main_v22 (broadcastInDim S130816 ![] bcast_S_S130816 : (⟨S_, .i32⟩ : BufTy).Contents (Elt F) → (⟨S130816, .i32⟩ : BufTy).Contents (Elt F)),
    StableHlo.binary main_v17 main_v22 main_v23 (addi : (⟨S130816, .i32⟩ : BufTy).Contents (Elt F) → (⟨S130816, .i32⟩ : BufTy).Contents (Elt F) → (⟨S130816, .i32⟩ : BufTy).Contents (Elt F)),
    StableHlo.ternary main_v21 main_v23 main_v17 main_v24 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v24 main_v25 (broadcastInDim S130816x1 ![0] bcast_S130816_S130816x1_0 : (⟨S130816, .i32⟩ : BufTy).Contents (Elt F) → (⟨S130816x1, .i32⟩ : BufTy).Contents (Elt F)),
    StableHlo.binary main_arg0 main_v25 main_v26 ((fun x i => Host.gather gather_S512x64_S130816x1_S130816x64_1_0_n_n_0_1_164 x i) : (⟨S512x64, .f32⟩ : BufTy).Contents (Elt F) → (⟨S130816x1, .i32⟩ : BufTy).Contents (Elt F) → (⟨S130816x64, .f32⟩ : BufTy).Contents (Elt F)),
    StableHlo.nullary main_c_11 (constantI S_ 32 0#32),
    StableHlo.unary main_c_11 main_v27 (broadcastInDim S130816 ![] bcast_S_S130816 : (⟨S_, .i32⟩ : BufTy).Contents (Elt F) → (⟨S130816, .i32⟩ : BufTy).Contents (Elt F)),
    StableHlo.binary main_v19 main_v27 main_v28 (cmpi .slt : (⟨S130816, .i32⟩ : BufTy).Contents (Elt F) → (⟨S130816, .i32⟩ : BufTy).Contents (Elt F) → (⟨S130816, .i1⟩ : BufTy).Contents (Elt F)),
    StableHlo.nullary main_c_12 (constantI S_ 32 512#32),
    StableHlo.unary main_c_12 main_v29 (broadcastInDim S130816 ![] bcast_S_S130816 : (⟨S_, .i32⟩ : BufTy).Contents (Elt F) → (⟨S130816, .i32⟩ : BufTy).Contents (Elt F)),
    StableHlo.binary main_v19 main_v29 main_v30 (addi : (⟨S130816, .i32⟩ : BufTy).Contents (Elt F) → (⟨S130816, .i32⟩ : BufTy).Contents (Elt F) → (⟨S130816, .i32⟩ : BufTy).Contents (Elt F)),
    StableHlo.ternary main_v28 main_v30 main_v19 main_v31 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)),
    StableHlo.unary main_v31 main_v32 (broadcastInDim S130816x1 ![0] bcast_S130816_S130816x1_0 : (⟨S130816, .i32⟩ : BufTy).Contents (Elt F) → (⟨S130816x1, .i32⟩ : BufTy).Contents (Elt F)),
    StableHlo.binary main_arg0 main_v32 main_v33 ((fun x i => Host.gather gather_S512x64_S130816x1_S130816x64_1_0_n_n_0_1_164 x i) : (⟨S512x64, .f32⟩ : BufTy).Contents (Elt F) → (⟨S130816x1, .i32⟩ : BufTy).Contents (Elt F) → (⟨S130816x64, .f32⟩ : BufTy).Contents (Elt F)),
    StableHlo.binary main_v26 main_v33 main_v34 (subf : (⟨S130816x64, .f32⟩ : BufTy).Contents (Elt F) → (⟨S130816x64, .f32⟩ : BufTy).Contents (Elt F) → (⟨S130816x64, .f32⟩ : BufTy).Contents (Elt F)),
    StableHlo.binary main_v34 main_v34 main_v35 (mulf : (⟨S130816x64, .f32⟩ : BufTy).Contents (Elt F) → (⟨S130816x64, .f32⟩ : BufTy).Contents (Elt F) → (⟨S130816x64, .f32⟩ : BufTy).Contents (Elt F)),
    StableHlo.nullary main_cst_13 (constant S_ .f32 0x00000000#32),
    StableHlo.binary main_v35 main_cst_13 main_v36 ((fun x v => Host.reduceAdd x v reducesTo_S130816x64_S130816_d1 h_S_) : (⟨S130816x64, .f32⟩ : BufTy).Contents (Elt F) → (⟨S_, .f32⟩ : BufTy).Contents (Elt F) → (⟨S130816, .f32⟩ : BufTy).Contents (Elt F)),
    StableHlo.unary main_v36 main_v37 (Host.sqrt : (⟨S130816, .f32⟩ : BufTy).Contents (Elt F) → (⟨S130816, .f32⟩ : BufTy).Contents (Elt F)) ]

/-- The distance vector [P] laid out as one row [1, P], and that row repeated 512 times. -/
abbrev closing : List (HloOp τ sig (Elt F)) :=
  [ StableHlo.unary main_v37 main_v38 (broadcastInDim S1x130816 ![1] bcast_S130816_S1x130816_1 : (⟨S130816, .f32⟩ : BufTy).Contents (Elt F) → (⟨S1x130816, .f32⟩ : BufTy).Contents (Elt F)),
    StableHlo.unary main_v38 main_v39 (broadcastInDim S512x130816 ![0, 1] bcast_S1x130816_S512x130816_0_1 : (⟨S1x130816, .f32⟩ : BufTy).Contents (Elt F) → (⟨S512x130816, .f32⟩ : BufTy).Contents (Elt F)) ]

/-- The lines up to the distance vector, in order. -/
abbrev headLines : List (List (HloOp τ sig (Elt F))) :=
  [line0, line1, line2, line3, line4, line5, line6, line7, line8, line9, line10, line11, line12, line13, line14, line15, line16]

/-- All of @main's operations, in order: the head, then the two closing broadcasts. -/
abbrev ops : List (HloOp τ sig (Elt F)) := headLines.flatten ++ closing

/-- @main is the chain of its lines: checked by unfolding both sides, one operation at a time. -/
theorem main_chain (c : Dev nD) : main (F := F) c = (Pipeline.chain
  [ seq line0,
    seq line1,
    seq line2,
    seq line3,
    seq line4,
    seq line5,
    seq line6,
    seq line7,
    seq line8,
    seq line9,
    seq line10,
    seq line11,
    seq line12,
    seq line13,
    seq line14,
    seq line15,
    seq line16,
    seq closing ] : Prog (TpuEff nD τ sig (Elt F) (Pipeline.Sig Λ₀ (Fin 0) fun p => (pcfgs (F := F) p).Adm) .tc) PUnit) := by
  chain_rfl

/-- @main is that straight line. -/
theorem main_eq (c : Dev nD) : main (F := F) c = seq ops := by
  rw [main_chain c]
  have h := Cert.StraightLine.chain_seq (nD := nD) (τ := τ) (sig := sig) (Val := Elt F)
    (Λ := Pipeline.Sig Λ₀ (Fin 0) fun p => (pcfgs (F := F) p).Adm) (headLines ++ [closing])
  rw [List.flatten_append, List.flatten_singleton] at h
  exact h

theorem scopedRefs_eq : (Finset.univ.filter fun b : Ref sig .tc => b.isScoped) = ∅ := by decide
theorem scopedSems_eq : (Finset.univ.filter fun sm : SemLoc sig => sm.isScoped .tc) = ∅ := by decide

/-! Each operation touches TensorCore references only, and fixes its results. -/

theorem line0_sub : (line0 : List (HloOp τ sig (Elt F))).Forall fun op => op.bufs ⊆ tcRefs τ sig :=
  ⟨StableHlo.nullary_bufs_sub .., StableHlo.unary_bufs_sub ..⟩
theorem line1_sub : (line1 : List (HloOp τ sig (Elt F))).Forall fun op => op.bufs ⊆ tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
theorem line2_sub : (line2 : List (HloOp τ sig (Elt F))).Forall fun op => op.bufs ⊆ tcRefs τ sig :=
  ⟨StableHlo.nullary_bufs_sub .., StableHlo.unary_bufs_sub .., StableHlo.binary_bufs_sub ..⟩
theorem line3_sub : (line3 : List (HloOp τ sig (Elt F))).Forall fun op => op.bufs ⊆ tcRefs τ sig :=
  ⟨StableHlo.reshape_bufs_sub .., StableHlo.unary_bufs_sub .., StableHlo.nullary_bufs_sub .., StableHlo.unary_bufs_sub .., StableHlo.binary_bufs_sub ..⟩
theorem line4_sub : (line4 : List (HloOp τ sig (Elt F))).Forall fun op => op.bufs ⊆ tcRefs τ sig :=
  ⟨StableHlo.nullary_bufs_sub .., StableHlo.unary_bufs_sub .., StableHlo.nullary_bufs_sub ..⟩
theorem line5_sub : (line5 : List (HloOp τ sig (Elt F))).Forall fun op => op.bufs ⊆ tcRefs τ sig :=
  ⟨StableHlo.unary_bufs_sub .., StableHlo.unary_bufs_sub .., StableHlo.binary_bufs_sub ..⟩
theorem line6_sub : (line6 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
theorem line7_sub : (line7 : List (HloOp τ sig (Elt F))).Forall fun op => op.bufs ⊆ tcRefs τ sig :=
  ⟨StableHlo.nullary_bufs_sub .., StableHlo.unary_bufs_sub .., StableHlo.binary_bufs_sub ..⟩
theorem line8_sub : (line8 : List (HloOp τ sig (Elt F))).Forall fun op => op.bufs ⊆ tcRefs τ sig :=
  StableHlo.nullary_bufs_sub ..
theorem line9_sub : (line9 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem line10_sub : (line10 : List (HloOp τ sig (Elt F))).Forall fun op => op.bufs ⊆ tcRefs τ sig :=
  StableHlo.nullary_bufs_sub ..
theorem line11_sub : (line11 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem line12_sub : (line12 : List (HloOp τ sig (Elt F))).Forall fun op => op.bufs ⊆ tcRefs τ sig :=
  StableHlo.nullary_bufs_sub ..
theorem line13_sub : (line13 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
theorem line14_sub : (line14 : List (HloOp τ sig (Elt F))).Forall fun op => op.bufs ⊆ tcRefs τ sig :=
  StableHlo.nullary_bufs_sub ..
theorem line15_sub : (line15 : List (HloOp τ sig (Elt F))).Forall fun op => op.bufs ⊆ tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem line16_sub : (line16 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub ..⟩
theorem closing_sub : (closing : List (HloOp τ sig (Elt F))).Forall fun op => op.bufs ⊆ tcRefs τ sig :=
  ⟨StableHlo.unary_bufs_sub .., StableHlo.unary_bufs_sub ..⟩

theorem line0_fresh : (line0 : List (HloOp τ sig (Elt F))).Forall fun op => op.fresh = ∅ := by
  simp only [List.Forall]; repeat' constructor
theorem line1_fresh : (line1 : List (HloOp τ sig (Elt F))).Forall fun op => op.fresh = ∅ := by
  simp only [List.Forall]; repeat' constructor
theorem line2_fresh : (line2 : List (HloOp τ sig (Elt F))).Forall fun op => op.fresh = ∅ := by
  simp only [List.Forall]; repeat' constructor
theorem line3_fresh : (line3 : List (HloOp τ sig (Elt F))).Forall fun op => op.fresh = ∅ := by
  simp only [List.Forall]; repeat' constructor
theorem line4_fresh : (line4 : List (HloOp τ sig (Elt F))).Forall fun op => op.fresh = ∅ := by
  simp only [List.Forall]; repeat' constructor
theorem line5_fresh : (line5 : List (HloOp τ sig (Elt F))).Forall fun op => op.fresh = ∅ := by
  simp only [List.Forall]; repeat' constructor
theorem line6_fresh : (line6 : List (HloOp τ sig (Elt F))).Forall fun op => op.fresh = ∅ := by
  simp only [List.Forall]; repeat' constructor
theorem line7_fresh : (line7 : List (HloOp τ sig (Elt F))).Forall fun op => op.fresh = ∅ := by
  simp only [List.Forall]; repeat' constructor
theorem line8_fresh : (line8 : List (HloOp τ sig (Elt F))).Forall fun op => op.fresh = ∅ := by
  simp only [List.Forall]; repeat' constructor
theorem line9_fresh : (line9 : List (HloOp τ sig (Elt F))).Forall fun op => op.fresh = ∅ := by
  simp only [List.Forall]; repeat' constructor
theorem line10_fresh : (line10 : List (HloOp τ sig (Elt F))).Forall fun op => op.fresh = ∅ := by
  simp only [List.Forall]; repeat' constructor
theorem line11_fresh : (line11 : List (HloOp τ sig (Elt F))).Forall fun op => op.fresh = ∅ := by
  simp only [List.Forall]; repeat' constructor
theorem line12_fresh : (line12 : List (HloOp τ sig (Elt F))).Forall fun op => op.fresh = ∅ := by
  simp only [List.Forall]; repeat' constructor
theorem line13_fresh : (line13 : List (HloOp τ sig (Elt F))).Forall fun op => op.fresh = ∅ := by
  simp only [List.Forall]; repeat' constructor
theorem line14_fresh : (line14 : List (HloOp τ sig (Elt F))).Forall fun op => op.fresh = ∅ := by
  simp only [List.Forall]; repeat' constructor
theorem line15_fresh : (line15 : List (HloOp τ sig (Elt F))).Forall fun op => op.fresh = ∅ := by
  simp only [List.Forall]; repeat' constructor
theorem line16_fresh : (line16 : List (HloOp τ sig (Elt F))).Forall fun op => op.fresh = ∅ := by
  simp only [List.Forall]; repeat' constructor
theorem closing_fresh : (closing : List (HloOp τ sig (Elt F))).Forall fun op => op.fresh = ∅ := by
  simp only [List.Forall]; repeat' constructor

theorem ops_sub : (ops : List (HloOp τ sig (Elt F))).Forall fun op => op.bufs ⊆ tcRefs τ sig := by
  have h := Cert.StraightLine.forall_flatten (p := fun op : HloOp τ sig (Elt F) => op.bufs ⊆ tcRefs τ sig) (headLines ++ [closing])
    (by simp only [List.cons_append, List.nil_append, List.Forall]
        exact ⟨line0_sub, line1_sub, line2_sub, line3_sub, line4_sub, line5_sub, line6_sub, line7_sub, line8_sub, line9_sub, line10_sub, line11_sub, line12_sub, line13_sub, line14_sub, line15_sub, line16_sub, closing_sub⟩)
  rwa [List.flatten_append, List.flatten_singleton] at h

theorem ops_fresh : ∀ op ∈ (ops : List (HloOp τ sig (Elt F))), op.fresh = ∅ := by
  have h := Cert.StraightLine.forall_flatten (p := fun op : HloOp τ sig (Elt F) => op.fresh = ∅) (headLines ++ [closing])
    (by simp only [List.cons_append, List.nil_append, List.Forall]
        exact ⟨line0_fresh, line1_fresh, line2_fresh, line3_fresh, line4_fresh, line5_fresh, line6_fresh, line7_fresh, line8_fresh, line9_fresh, line10_fresh, line11_fresh, line12_fresh, line13_fresh, line14_fresh, line15_fresh, line16_fresh, closing_fresh⟩)
  rw [List.flatten_append, List.flatten_singleton] at h
  exact List.forall_iff_forall_mem.mp h

/-- At the compiled mesh, for any float values, from any memory with zero counters: every weakly fair execution of
    @main terminates, and every final state has each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  StableHlo.run_seq scopedRefs_eq scopedSems_eq defs main (fun _ => ops) main_eq (fun _ => ops_sub) m ρ (fun _ => ops_fresh)

end Cert.ReferenceIdeal.Straight

end
-- ==== Proof.SameDistances.lean ====
/-
  The two programs' results are one array.

  Both programs apply the same host operations to the node table z: the pairs i < j of `triu_indices`, the rows z[i]
  and z[j], and the distance sqrt(Σ_k (z[i,k] − z[j,k])²) of every pair. Nothing in that chain is opened here: each
  side's fold over its operations is expanded to the operations' composed term, the node tables are identified, and
  the two terms are then literally the same (`same_distances`). What differs is only the layout at the end — the
  reference broadcasts the distance vector to one row and then to 512 rows, the kernel's program reshapes it to one
  row that the region repeats — and both are the vector repeated in every row (`Cert.RowRepeat`).
-/
import proofs.«100412_j70824010711584_1_alg».proof.Proof.RefRun
import proofs.«100412_j70824010711584_1_alg».proof.Proof.Gen.KernelIdeal.Frame
import proofs.«100412_j70824010711584_1_alg».proof.Proof.RowRepeat

set_option maxRecDepth 8192

noncomputable section

namespace Cert.Bridge

open Idealize.ShloMosaic Idealize.ShloMosaic.TcCoe Idealize.SL.Sem Idealize.ShloMosaic.StableHlo
open Cert.RowRepeat

variable {F : FTy → Type} [FloatOps F]

/-- The kernel's host operations before its region, all seventeen lines of them. -/
abbrev kernelLines : List (List (HloOp Cert.KernelIdeal.τ Cert.KernelIdeal.sig (Elt F))) :=
  [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]

set_option maxHeartbeats 4000000 in
/-- THE SHARED CHAIN. From node tables that agree, the two programs' host operations leave the same distance vector
    in `main_v37`: expanded operation by operation both folds are the same composed term of the node table. -/
theorem same_distances (VK : Valuation Cert.KernelIdeal.τ Cert.KernelIdeal.sig (Elt F))
    (VR : Valuation Cert.ReferenceIdeal.τ Cert.ReferenceIdeal.sig (Elt F))
    (h : VR (Proc.devRef .tc Cert.ReferenceIdeal.main_arg0) = VK (Proc.devRef .tc Cert.KernelIdeal.main_arg0)) :
    after (List.flatten (Cert.ReferenceIdeal.Straight.headLines (F := F))) VR (Proc.devRef .tc Cert.ReferenceIdeal.main_v37)
      = after (List.flatten (kernelLines (F := F))) VK (Proc.devRef .tc Cert.KernelIdeal.main_v37) := by
  simp only [kernelLines, Cert.ReferenceIdeal.Straight.headLines, Cert.ReferenceIdeal.Straight.line0, Cert.ReferenceIdeal.Straight.line1, Cert.ReferenceIdeal.Straight.line2, Cert.ReferenceIdeal.Straight.line3, Cert.ReferenceIdeal.Straight.line4, Cert.ReferenceIdeal.Straight.line5, Cert.ReferenceIdeal.Straight.line6, Cert.ReferenceIdeal.Straight.line7, Cert.ReferenceIdeal.Straight.line8, Cert.ReferenceIdeal.Straight.line9, Cert.ReferenceIdeal.Straight.line10, Cert.ReferenceIdeal.Straight.line11, Cert.ReferenceIdeal.Straight.line12, Cert.ReferenceIdeal.Straight.line13, Cert.ReferenceIdeal.Straight.line14, Cert.ReferenceIdeal.Straight.line15, Cert.ReferenceIdeal.Straight.line16,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16,
    List.flatten_cons, List.flatten_nil, List.append_nil, List.cons_append, List.nil_append]
  after_results_simp
  rw [h]
  rfl

/-- The last line of the kernel's host operations, from any contents `W` before it: the reshape to one row reads the
    square root's result, which nothing after it writes. -/
theorem last_line (W : Valuation Cert.KernelIdeal.τ Cert.KernelIdeal.sig (Elt F)) :
    after (Cert.KernelIdeal.Gen.hostOps0_16 (F := F)) W (Proc.devRef .tc Cert.KernelIdeal.main_v38)
      = shapeCast Cert.KernelIdeal.S1x130816 (after (Cert.KernelIdeal.Gen.hostOps0_16 (F := F)) W (Proc.devRef .tc Cert.KernelIdeal.main_v37))
          Cert.KernelIdeal.Facts₀.shapeCasts_S130816_S1x130816 := by
  simp only [Cert.KernelIdeal.Gen.hostOps0_16]
  after_results_simp
  rfl

/-- The kernel's program hands its region the distance vector reshaped to one row. -/
theorem kernel_row (VK : Valuation Cert.KernelIdeal.τ Cert.KernelIdeal.sig (Elt F)) :
    after (List.flatten (kernelLines (F := F))) VK (Proc.devRef .tc Cert.KernelIdeal.main_v38)
      = shapeCast Cert.KernelIdeal.S1x130816 (after (List.flatten (kernelLines (F := F))) VK (Proc.devRef .tc Cert.KernelIdeal.main_v37))
          Cert.KernelIdeal.Facts₀.shapeCasts_S130816_S1x130816 := by
  have e : List.flatten (kernelLines (F := F)) = List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15] ++ Cert.KernelIdeal.Gen.hostOps0_16 := by
    show List.flatten ([Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15] ++ [Cert.KernelIdeal.Gen.hostOps0_16]) = _
    rw [List.flatten_append, List.flatten_singleton]
  rw [e, Cert.StraightLine.after_append]
  exact last_line _

/-- The reference's two closing broadcasts, from any contents `W` before them: the vector in `main_v37` repeated in
    every row. -/
theorem closing_result (W : Valuation Cert.ReferenceIdeal.τ Cert.ReferenceIdeal.sig (Elt F)) :
    after (Cert.ReferenceIdeal.Straight.closing (F := F)) W (Proc.devRef .tc Cert.ReferenceIdeal.main_v39)
      = repeatRows (W (Proc.devRef .tc Cert.ReferenceIdeal.main_v37)) := by
  simp only [Cert.ReferenceIdeal.Straight.closing]
  after_results_simp
  exact broadcast_twice _ _ _

/-- The reference's result is the distance vector repeated in every row. -/
theorem reference_result (VR : Valuation Cert.ReferenceIdeal.τ Cert.ReferenceIdeal.sig (Elt F)) :
    after (Cert.ReferenceIdeal.Straight.ops (F := F)) VR (Proc.devRef .tc Cert.ReferenceIdeal.main_v39)
      = repeatRows (after (List.flatten (Cert.ReferenceIdeal.Straight.headLines (F := F))) VR (Proc.devRef .tc Cert.ReferenceIdeal.main_v37)) := by
  show after (List.flatten (Cert.ReferenceIdeal.Straight.headLines (F := F)) ++ Cert.ReferenceIdeal.Straight.closing) VR _ = _
  rw [Cert.StraightLine.after_append]
  exact closing_result _

set_option maxHeartbeats 4000000 in
/-- No operation of the reference writes its argument. -/
theorem reference_arg (VR : Valuation Cert.ReferenceIdeal.τ Cert.ReferenceIdeal.sig (Elt F)) :
    after (Cert.ReferenceIdeal.Straight.ops (F := F)) VR (Proc.devRef .tc Cert.ReferenceIdeal.main_arg0)
      = VR (Proc.devRef .tc Cert.ReferenceIdeal.main_arg0) := by
  simp only [Cert.ReferenceIdeal.Straight.ops, Cert.ReferenceIdeal.Straight.closing, Cert.ReferenceIdeal.Straight.headLines, Cert.ReferenceIdeal.Straight.line0, Cert.ReferenceIdeal.Straight.line1, Cert.ReferenceIdeal.Straight.line2, Cert.ReferenceIdeal.Straight.line3, Cert.ReferenceIdeal.Straight.line4, Cert.ReferenceIdeal.Straight.line5, Cert.ReferenceIdeal.Straight.line6, Cert.ReferenceIdeal.Straight.line7, Cert.ReferenceIdeal.Straight.line8, Cert.ReferenceIdeal.Straight.line9, Cert.ReferenceIdeal.Straight.line10, Cert.ReferenceIdeal.Straight.line11, Cert.ReferenceIdeal.Straight.line12, Cert.ReferenceIdeal.Straight.line13, Cert.ReferenceIdeal.Straight.line14, Cert.ReferenceIdeal.Straight.line15, Cert.ReferenceIdeal.Straight.line16,
    List.flatten_cons, List.flatten_nil, List.append_nil, List.cons_append, List.nil_append]
  after_results_simp

/-- THE TWO RESULTS. From memories that agree on the node table, the reference's result buffer after its operations is
    the array the kernel's region leaves: the row it was handed, repeated in all 512 rows. -/
theorem result_eq (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Straight.ops (F := F)) (launchContents m' c) (Proc.devRef .tc Cert.ReferenceIdeal.main_v39)
      = repeatRow (Cert.KernelIdeal.Gen.V m c Cert.KernelIdeal.main_v38) := by
  rw [reference_result]
  show _ = repeatRow (after (List.flatten (kernelLines (F := F))) (fun b => m (c, b)) (Proc.devRef .tc Cert.KernelIdeal.main_v38))
  rw [kernel_row, repeatRow_reshape]
  exact congrArg repeatRows (same_distances _ _ h)

end Cert.Bridge

end
-- ==== Proof.lean ====
/-
  The pairwise-distance table: from the node table z : [512, 64], the Euclidean distance of every pair of rows i < j
  (P = 512·511/2 = 130816 pairs), repeated in each of 512 rows — out[r, p] = ‖z[i_p] − z[j_p]‖.

  Both programs compute the distance vector with the same host operations (the index vectors of the pairs, the two row
  gathers, the difference squared and summed over the 64 coordinates, the square root); they differ only in how the
  vector becomes the [512, P] result. The reference broadcasts it to one row and then over the rows. The kernel's
  program reshapes it to one row [1, P], and a 2 × 14 grid of points each copies 9344 columns of that row into a
  256-row block of the result. Read at (r, p), each spelling gives the vector at p, and the 28 blocks tile the result,
  so over the extended reals the two results are equal entry by entry — with no arithmetic law needed, hence for
  every input, finite or not.

  Where each part is proved: the kernel's array after its run is the handed row repeated (Proof/KernelRows.lean, over
  the generated frame run and block reading); the reference's run as a straight line of operations
  (Proof/RefRun.lean); the two host chains leave the same vector and the two layouts are the same array
  (Proof/SameDistances.lean over Proof/RowRepeat.lean). The three frames are the generated frame runs of the two
  kernel programs and the reference's straight-line run; the idealization rewrote nothing, so `preserves` is trivial.
-/
import proofs.«100412_j70824010711584_1_alg».proof.Defs
import proofs.«100412_j70824010711584_1_alg».proof.Proof.Gen.Kernel
import proofs.«100412_j70824010711584_1_alg».proof.Proof.Gen.Kernel.Skeleton
import proofs.«100412_j70824010711584_1_alg».proof.Proof.Gen.Kernel.Launch
import proofs.«100412_j70824010711584_1_alg».proof.Proof.Gen.Kernel.Points
import proofs.«100412_j70824010711584_1_alg».proof.Proof.Gen.Kernel.Frame
import proofs.«100412_j70824010711584_1_alg».proof.Proof.Gen.KernelIdeal
import proofs.«100412_j70824010711584_1_alg».proof.Proof.Gen.KernelIdeal.Skeleton
import proofs.«100412_j70824010711584_1_alg».proof.Proof.Gen.KernelIdeal.Launch
import proofs.«100412_j70824010711584_1_alg».proof.Proof.Gen.KernelIdeal.Points
import proofs.«100412_j70824010711584_1_alg».proof.Proof.Gen.KernelIdeal.Frame
import proofs.«100412_j70824010711584_1_alg».proof.Proof.Gen.KernelIdeal.Value
import proofs.«100412_j70824010711584_1_alg».proof.Proof.Gen.ReferenceIdeal
import proofs.«100412_j70824010711584_1_alg».proof.Proof.Gen.Pre_finite_inputs
import proofs.«100412_j70824010711584_1_alg».proof.Proof.KernelRows
import proofs.«100412_j70824010711584_1_alg».proof.Proof.RefRun
import proofs.«100412_j70824010711584_1_alg».proof.Proof.SameDistances
import Idealize.ShloMosaic.Adequacy
import Idealize.ShloMosaic.Init

noncomputable section

namespace Cert.Proof

open Idealize.ShloMosaic Idealize.SL.Sem Idealize.ShloMosaic.StableHlo

/-- The kernel's program runs and leaves its argument as it was: the generated frame run. -/
theorem frame_k : Cert.frame_Kernel := fun m ρ _ => Cert.Kernel.Gen.frame m ρ

/-- The same for its idealization. -/
theorem frame_ki : Cert.frame_KernelIdeal := fun m ρ _ => Cert.KernelIdeal.Gen.frame m ρ

/-- The reference is a straight line of host operations, none of which writes the node table. -/
theorem frame_ri : Cert.frame_ReferenceIdeal := fun m ρ _ =>
  (θ_run Cert.ReferenceIdeal.defs _ _).mono
    (fun _ h c => (h c Cert.ReferenceIdeal.main_arg0).trans (Cert.Bridge.reference_arg _))
    (Cert.ReferenceIdeal.Straight.run_all (F := Ideal) m ρ)

/-- The idealization rewrote no operation. -/
theorem preserves : Cert.preserves_Kernel_KernelIdeal := trivial

/-- From memories that agree on the node table both programs end with the same [512, P] array: the kernel's region
    leaves the row it was handed in every row, the reference's broadcasts leave the distance vector in every row, and
    that row is that vector. -/
theorem algebraic : Cert.algebraic_KernelIdeal_ReferenceIdeal := by
  intro m ρ m' ρ' _ hagree
  refine ⟨fun c => Cert.RowRepeat.repeatRow (Cert.KernelIdeal.Gen.V m c Cert.KernelIdeal.main_v38),
    Cert.KernelIdeal.Rows.run (F := Ideal) m ρ, ?_⟩
  refine (θ_run Cert.ReferenceIdeal.defs _ _).mono
    (fun _ h c => ⟨(h c Cert.ReferenceIdeal.main_v39).trans (Cert.Bridge.result_eq m m' c (hagree c)),
      (h c Cert.ReferenceIdeal.main_arg0).trans (Cert.Bridge.reference_arg _)⟩)
    (Cert.ReferenceIdeal.Straight.run_all (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
